-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x1 .f32) (main_arg5 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg4
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S100000x1 : Shape := ⟨2, ![100000, 1]⟩
abbrev S10000x1 : Shape := ⟨2, ![10000, 1]⟩
abbrev S1x64 : Shape := ⟨2, ![1, 64]⟩
abbrev S1x1 : Shape := ⟨2, ![1, 1]⟩

abbrev nBuf : Space → Nat
  | .hbm => 88
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S100000x1, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x1, .f32⟩
  | .hbm, ⟨76, _⟩ => ⟨S1700000x1, .f32⟩
  | .hbm, ⟨77, _⟩ => ⟨S1700000x1, .f32⟩
  | .hbm, ⟨78, _⟩ => ⟨S_, .f32⟩
  | .hbm, ⟨79, _⟩ => ⟨S100000x1, .f32⟩
  | .hbm, ⟨80, _⟩ => ⟨S1700000x1, .i32⟩
  | .hbm, ⟨81, _⟩ => ⟨S100000x1, .f32⟩
  | .hbm, ⟨82, _⟩ => ⟨S1x1, .f32⟩
  | .hbm, ⟨83, _⟩ => ⟨S100000x1, .f32⟩
  | .hbm, ⟨84, _⟩ => ⟨S100000x1, .f32⟩
  | .hbm, ⟨85, _⟩ => ⟨S_, .i32⟩
  | .hbm, ⟨86, _⟩ => ⟨S_, .f32⟩
  | .hbm, ⟨87, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S64x1, .f32⟩
  | .local _ .vmem, ⟨9, _⟩ => ⟨S10000x1, .f32⟩
  | .local _ .vmem, ⟨10, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_call1_v0 : Ref sig .tc := ⟨.hbm, 86, rfl⟩
abbrev main_v62 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  pads_S100000x1_S100000x128_000_01270 : S100000x1.Pads (![0, 0] : Fin 2 → Nat) ![0, 127] ![0, 0] S100000x128
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x1_S10000x1_1_0_0_1_n_n_wf : DotDims.WF S10000x64 S64x1 S10000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x1.size a ≤ S100000x1.size a
  hwx1_3 : ∀ i : grid1.Coords, EltTy.bits .f32 = 32 ∨ (Rect.block (s := S100000x1) S10000x1.size (cc1_transform_3 i) (hinb1_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v46) S10000x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩
abbrev S1x1 : Shape := ⟨2, ![1, 1]⟩

abbrev nBuf : Space → Nat
  | .hbm => 94
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x1, .f32⟩
  | .hbm, ⟨5, _⟩ => ⟨S1, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x1, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x1, .f32⟩
  | .hbm, ⟨82, _⟩ => ⟨S1700000x1, .f32⟩
  | .hbm, ⟨83, _⟩ => ⟨S1700000x1, .f32⟩
  | .hbm, ⟨84, _⟩ => ⟨S_, .f32⟩
  | .hbm, ⟨85, _⟩ => ⟨S100000x1, .f32⟩
  | .hbm, ⟨86, _⟩ => ⟨S1700000x1, .i32⟩
  | .hbm, ⟨87, _⟩ => ⟨S100000x1, .f32⟩
  | .hbm, ⟨88, _⟩ => ⟨S1x1, .f32⟩
  | .hbm, ⟨89, _⟩ => ⟨S100000x1, .f32⟩
  | .hbm, ⟨90, _⟩ => ⟨S100000x1, .f32⟩
  | .hbm, ⟨91, _⟩ => ⟨S_, .i32⟩
  | .hbm, ⟨92, _⟩ => ⟨S_, .f32⟩
  | .hbm, ⟨93, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_12 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_call2_v0 : Ref sig .tc := ⟨.hbm, 92, rfl⟩
abbrev main_v66 : Ref sig .tc := ⟨.hbm, 93, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  pads_S100000x1_S100000x128_000_01270 : S100000x1.Pads (![0, 0] : Fin 2 → Nat) ![0, 127] ![0, 0] S100000x128
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x1_S100000x1_1_0_0_1_n_n_wf : DotDims.WF S100000x64 S64x1 S100000x1 [1] [0] [0] [1] [] []
  gather_S100000x1_S1700000x1_S1700000x1_1_0_n_n_0_1_11_wf : GatherDims.WF S100000x1 S1700000x1 S1700000x1 [1] [0] [] [0] [] 1 ![1, 1]
  scatter_S100000x1_S1700000x1_S1700000x1_1_0_0_1_wf : ScatterDims.WF S100000x1 S1700000x1 S1700000x1 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf
def gather_S100000x1_S1700000x1_S1700000x1_1_0_n_n_0_1_11 : GatherDims S100000x1 S1700000x1 S1700000x1 where
  offsetDims := [1]
  collapsedSliceDims := [0]
  operandBatchingDims := []
  startIndicesBatchingDims := []
  startIndexMap := [0]
  indexVectorDim := 1
  sliceSizes := ![1, 1]
  wf := gather_S100000x1_S1700000x1_S1700000x1_1_0_n_n_0_1_11_wf
def scatter_S100000x1_S1700000x1_S1700000x1_1_0_0_1 : ScatterDims S100000x1 S1700000x1 S1700000x1 where
  updateWindowDims := [1]
  insertedWindowDims := [0]
  scatterDimsToOperandDims := [0]
  indexVectorDim := 1
  wf := scatter_S100000x1_S1700000x1_S1700000x1_1_0_0_1_wf

class Facts : Prop extends Facts₀ where

variable [Facts]
-- ==== Proof.RunNamed.lean ====
/-
  The idealized kernel's run with the result array named.

  The program is a chain of eight segments: three stretches of host operations, the first matrix-product region,
  a stretch, the second region, two more stretches. The memory at each boundary is a fold from the launch memory:
  a stretch applies its operations in order, a region replaces each of its output arrays by what its grid points
  wrote back and keeps every other buffer. Every weakly fair execution terminates with EVERY unscoped buffer at the
  last boundary's contents; read at the result buffer this names the result, and read at the six argument buffers
  it says they are unchanged.
-/
import proofs.«131981_j27522150432987_1_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's
    contents and the six arguments as launched. -/
theorem run_named : θ_run defs (onTc (τ := τ) (main (F := F))) ⟨m, fun _ => 0, ρ⟩ (fun r => ∀ c : Dev nD,
      r.2.mem ((c.tc : Thread nD τ).loc main_v62) = W8 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v62 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.KV

end
-- ==== Proof.HostStretches.lean ====
/-
  The kernel program's host operations between the regions, read back — from ANY contents they start from.

  Both programs compute, outside the two matrix products, the same graph aggregation: the edge list with self loops
  (source and target of each edge), the symmetric normalisation `norm` of each edge from the target degrees, and then
  twice "gather the rows at the sources, scale by `norm`, scatter-add at the targets". The kernel program runs these as
  three stretches of host operations before its first region, one stretch between the regions and two after the second.
  Each lemma reads one stretch's result as the reference's stage of the same name, given that the buffers the stretch
  reads hold the reference's stages; the other lemmas say which buffers a stretch leaves alone.
-/
import proofs.«131981_j27522150432987_1_alg».proof.Proof.Gen.KernelIdeal.Launch
import proofs.«131981_j27522150432987_1_alg».proof.Proof.RefRead
import Idealize.ShloMosaic.Lib.StableHlo.Run

set_option maxRecDepth 16384

noncomputable section

namespace Cert.KernelIdeal.KV

open Cert.KernelIdeal Cert.KernelIdeal.Gen
open Idealize.ShloMosaic Idealize.ShloMosaic.TcCoe Idealize.SL.Sem Idealize.ShloMosaic.StableHlo

variable {F : FTy → Type} [FloatOps F]

/-- The contents after the three stretches before the first region. -/
abbrev before0 (Wa : Valuation τ sig (Elt F)) : Valuation τ sig (Elt F) :=
  StableHlo.after hostOps0_2 (StableHlo.after hostOps0_1 (StableHlo.after hostOps0 Wa))

/-- The contents after the stretch between the regions. -/
abbrev between (Wb : Valuation τ sig (Elt F)) : Valuation τ sig (Elt F) := StableHlo.after hostOps1 Wb

/-- The contents after the two stretches that follow the second region. -/
abbrev after1 (Wc : Valuation τ sig (Elt F)) : Valuation τ sig (Elt F) :=
  StableHlo.after hostOps2_1 (StableHlo.after hostOps2 Wc)

/-! ## Before the first region: the edge list and the normalisation, from the edge index alone -/

set_option maxHeartbeats 4000000 in
/-- The edge sources (with self loops). -/
theorem before0_src (Wa : Valuation τ sig (Elt F)) :
    before0 Wa (Proc.devRef .tc main_v3) = Cert.ReferenceIdeal.Read.val_main_v3 (F := F) (Wa (Proc.devRef .tc main_arg1)) := by
  dsimp only [before0, hostOps0, hostOps0_1, hostOps0_2]
  after_results_simp <;> rfl

set_option maxHeartbeats 4000000 in
/-- The edge targets (with self loops). -/
theorem before0_dst (Wa : Valuation τ sig (Elt F)) :
    before0 Wa (Proc.devRef .tc main_v6) = Cert.ReferenceIdeal.Read.val_main_v6 (F := F) (Wa (Proc.devRef .tc main_arg1)) := by
  dsimp only [before0, hostOps0, hostOps0_1, hostOps0_2]
  after_results_simp <;> rfl

set_option maxHeartbeats 4000000 in
/-- The normalisation of each edge. -/
theorem before0_norm (Wa : Valuation τ sig (Elt F)) :
    before0 Wa (Proc.devRef .tc main_v31) = Cert.ReferenceIdeal.Read.val_main_v31 (F := F) (Wa (Proc.devRef .tc main_arg1)) := by
  dsimp only [before0, hostOps0, hostOps0_1, hostOps0_2]
  after_results_simp <;> rfl

set_option maxHeartbeats 4000000 in
/-- The five float arguments are not written before the first region. -/
theorem before0_args (Wa : Valuation τ sig (Elt F)) :
    before0 Wa (Proc.devRef .tc main_arg0) = Wa (Proc.devRef .tc main_arg0)
    ∧ before0 Wa (Proc.devRef .tc main_arg2) = Wa (Proc.devRef .tc main_arg2)
    ∧ before0 Wa (Proc.devRef .tc main_arg3) = Wa (Proc.devRef .tc main_arg3)
    ∧ before0 Wa (Proc.devRef .tc main_arg4) = Wa (Proc.devRef .tc main_arg4)
    ∧ before0 Wa (Proc.devRef .tc main_arg5) = Wa (Proc.devRef .tc main_arg5) := by
  dsimp only [before0, hostOps0, hostOps0_1, hostOps0_2]
  refine ⟨?_, ?_, ?_, ?_, ?_⟩ <;> (after_results_simp <;> rfl)

/-! ## Between the regions: the first aggregation -/

set_option maxHeartbeats 4000000 in
/-- Gathering the first product's rows at the sources, scaling by the normalisation and scatter-adding at the targets is
    the reference's first aggregation, when the stretch finds the first product and the edge data of the reference. -/
theorem between_agg (Wb : Valuation τ sig (Elt F))
    (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x64, .f32⟩ : BufTy).Contents (Elt F))
    (h32 : Wb (Proc.devRef .tc main_v32) = Cert.ReferenceIdeal.Read.val_main_v32 (F := F) x0 x2)
    (h3 : Wb (Proc.devRef .tc main_v3) = Cert.ReferenceIdeal.Read.val_main_v3 (F := F) x1)
    (h6 : Wb (Proc.devRef .tc main_v6) = Cert.ReferenceIdeal.Read.val_main_v6 (F := F) x1)
    (h31 : Wb (Proc.devRef .tc main_v31) = Cert.ReferenceIdeal.Read.val_main_v31 (F := F) x1) :
    between Wb (Proc.devRef .tc main_v45) = Cert.ReferenceIdeal.Read.val_main_v45 (F := F) x0 x1 x2 := by
  dsimp only [between, hostOps1]
  after_results_simp
  rw [h32, h3, h6, h31]
  rfl

set_option maxHeartbeats 4000000 in
/-- The stretch between the regions leaves the edge data and the last three arguments alone. -/
theorem between_kept (Wb : Valuation τ sig (Elt F)) :
    between Wb (Proc.devRef .tc main_v3) = Wb (Proc.devRef .tc main_v3)
    ∧ between Wb (Proc.devRef .tc main_v6) = Wb (Proc.devRef .tc main_v6)
    ∧ between Wb (Proc.devRef .tc main_v31) = Wb (Proc.devRef .tc main_v31)
    ∧ between Wb (Proc.devRef .tc main_arg3) = Wb (Proc.devRef .tc main_arg3)
    ∧ between Wb (Proc.devRef .tc main_arg4) = Wb (Proc.devRef .tc main_arg4)
    ∧ between Wb (Proc.devRef .tc main_arg5) = Wb (Proc.devRef .tc main_arg5) := by
  dsimp only [between, hostOps1]
  refine ⟨?_, ?_, ?_, ?_, ?_, ?_⟩ <;> (after_results_simp <;> rfl)

/-! ## After the second region: the second aggregation, the output bias and the padding -/

set_option maxHeartbeats 4000000 in
/-- Gathering the second product at the sources, scaling, scatter-adding at the targets, adding the output bias and
    padding to 128 columns is the reference's result, when the stretches find the reference's second product, its
    edge data and the output bias. -/
theorem after1_result (Wc : Valuation τ sig (Elt F))
    (x0 : (⟨Cert.ReferenceIdeal.S100000x128, .f32⟩ : BufTy).Contents (Elt F))
    (x1 : (⟨Cert.ReferenceIdeal.S2x1600000, .i32⟩ : BufTy).Contents (Elt F))
    (x2 : (⟨Cert.ReferenceIdeal.S128x64, .f32⟩ : BufTy).Contents (Elt F))
    (x3 : (⟨Cert.ReferenceIdeal.S64, .f32⟩ : BufTy).Contents (Elt F))
    (x4 : (⟨Cert.ReferenceIdeal.S64x1, .f32⟩ : BufTy).Contents (Elt F))
    (x5 : (⟨Cert.ReferenceIdeal.S1, .f32⟩ : BufTy).Contents (Elt F))
    (h46 : Wc (Proc.devRef .tc main_v46) = Cert.ReferenceIdeal.Read.val_main_v50 (F := F) x0 x1 x2 x3 x4)
    (h3 : Wc (Proc.devRef .tc main_v3) = Cert.ReferenceIdeal.Read.val_main_v3 (F := F) x1)
    (h6 : Wc (Proc.devRef .tc main_v6) = Cert.ReferenceIdeal.Read.val_main_v6 (F := F) x1)
    (h31 : Wc (Proc.devRef .tc main_v31) = Cert.ReferenceIdeal.Read.val_main_v31 (F := F) x1)
    (h5 : Wc (Proc.devRef .tc main_arg5) = x5) :
    after1 Wc (Proc.devRef .tc main_v62) = Cert.ReferenceIdeal.Read.val_main_v66 (F := F) x0 x1 x2 x3 x4 x5 := by
  dsimp only [after1, hostOps2, hostOps2_1]
  after_results_simp
  rw [h46, h3, h6, h31, h5]
  rfl

end Cert.KernelIdeal.KV

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.Products.lean ====
/-
  The two kernel bodies' stored values, read at an entry, over the extended reals.

  First body: a block of 10000 rows of `x` times the whole of `W1`. Rounding the operands to bf16 is the identity
  on extended reals and the accumulator is zero, so entry `(p, q)` is `Σ_k x (p, k) · W1 (k, q)`.

  Second body: a block of 10000 rows `a`, the bias row `b` added to every row, the positive part taken, the result
  times the column `W2`: entry `(p, q)` is `Σ_k max (a (p, k) + b k) 0 · W2 (k, q)`.
-/
import proofs.«131981_j27522150432987_1_alg».proof.Proof.Gen.KernelIdeal.Skeleton
import proofs.«131981_j27522150432987_1_alg».proof.Proof.LibMatmulPlain
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KV

open Cert.KernelIdeal Cert.KernelIdeal.Gen
open Idealize.ShloMosaic Idealize.ShloMosaic.TcCoe Idealize.ShloMosaic.ValueIdx

/-- The first body's product at entry `(p, q)`. -/
theorem prod0_ix (x : Vec Ideal S10000x128 .f32) (w : Vec Ideal S128x64 .f32) (p : Fin 10000) (q : Fin 64) :
    k0_pay1 (F := Ideal) x w (ix2 p q) = ∑ k : Fin 128, x (ix2 p k) * w (ix2 k q) := by
  unfold k0_pay1
  exact Cert.Lib.matmul_plain_zero_apply (φ₁ := .bf16) (φ₂ := .bf16) 10000 128 64 none x w p q

/-- The same at an index of the block. -/
theorem prod0_apply (x : Vec Ideal S10000x128 .f32) (w : Vec Ideal S128x64 .f32) (j : S10000x64.Idx) :
    k0_pay1 (F := Ideal) x w j = ∑ k : Fin 128, x (ix2 (j 0) k) * w (ix2 k (j 1)) := by
  exact (congrArg (k0_pay1 (F := Ideal) x w) (eq_ix2 j)).trans (prod0_ix x w (j 0) (j 1))

/-- The second body's left factor at entry `(p, k)`: the block plus the bias row, positive part. -/
theorem relu_ix (a : Vec Ideal S10000x64 .f32) (b : Vec Ideal S64 .f32) (p : Fin 10000) (k : Fin 64) :
    maximumf (F := Ideal) (addf (shapeCast S10000x64 a shapeCasts_S10000x64_S10000x64)
        (broadcastTo S10000x64 (shapeCast S1x64 b shapeCasts_S64_S1x64) broadcasts_S1x64_S10000x64))
      (broadcast S10000x64 (Scalar.ofBits (F := Ideal) .f32 0x00000000#32)) (ix2 p k)
      = max (a (ix2 p k) + b (ix1 k)) (Ideal.ofBits .f32 0x00000000#32) := by
  rw [maximumf_apply, addf_apply, shapeCast_self, broadcastTo_1b_ab_apply, shapeCast_a_1a_apply]
  rfl

/-- The second body's product at entry `(p, q)`. -/
theorem prod1_ix (a : Vec Ideal S10000x64 .f32) (b : Vec Ideal S64 .f32) (w : Vec Ideal S64x1 .f32) (p : Fin 10000) (q : Fin 1) :
    k1_pay1 (F := Ideal) a b w (ix2 p q)
      = ∑ k : Fin 64, max (a (ix2 p k) + b (ix1 k)) (Ideal.ofBits .f32 0x00000000#32) * w (ix2 k q) := by
  unfold k1_pay1
  refine (Cert.Lib.matmul_plain_zero_apply (φ₁ := .bf16) (φ₂ := .bf16) 10000 64 1 none _ w p q).trans ?_
  refine Finset.sum_congr rfl fun k _ => ?_
  exact congrArg (· * w (ix2 k q)) (relu_ix a b p k)

/-- The same at an index of the block. -/
theorem prod1_apply (a : Vec Ideal S10000x64 .f32) (b : Vec Ideal S64 .f32) (w : Vec Ideal S64x1 .f32) (j : S10000x1.Idx) :
    k1_pay1 (F := Ideal) a b w j
      = ∑ k : Fin 64, max (a (ix2 (j 0) k) + b (ix1 k)) (Ideal.ofBits .f32 0x00000000#32) * w (ix2 k (j 1)) := by
  exact (congrArg (k1_pay1 (F := Ideal) a b w) (eq_ix2 j)).trans (prod1_ix a b w (j 0) (j 1))

end Cert.KernelIdeal.KV

end
-- ==== Proof.LibDotGeneralPlain.lean ====
/-
  A host `dot_general` with the plain dimension numbers, read at an entry, over the extended reals.

  For `DotDims.plain M K N` (an `M × K` left operand, a `K × N` right operand, the left one's columns contracted with
  the right one's rows, no batch axis) entry `(p, q)` of the host's product is `Σ_{k < K} l (p, k) * r (k, q)`, whatever
  the precision attribute: the contraction index has one coordinate, which runs over `Fin K`.
-/
import Idealize.ShloMosaic.PureOps.Ideal.Laws
import Idealize.ShloMosaic.Lib.ValueIdx
import proofs.«131981_j27522150432987_1_alg».proof.Proof.LibMatmulPlain

noncomputable section

open scoped BigOperators

namespace Cert.Lib

open Idealize.ShloMosaic Idealize.ShloMosaic.ValueIdx

/-- ENTRY `(p, q)` OF A PLAIN HOST PRODUCT: the sum over `k : Fin K` of `l (p, k) * r (k, q)`. -/
theorem dotGeneral_plain_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    Host.dotGeneral (DotDims.plain M K N) prec l r (ix2 p q) = ∑ k : Fin K, l (ix2 p k) * r (ix2 k q) := by
  simp only [Host.dotGeneral]
  rw [Ideal.dotGeneral_apply, ← Equiv.sum_comp (contrEquiv1 (DotDims.plain M K N) K rfl rfl).symm]
  refine Finset.sum_congr rfl fun k _ => ?_
  rw [plain_lhsIdx, plain_rhsIdx]

end Cert.Lib

end
-- ==== Proof.RefProducts.lean ====
/-
  The reference's two matrix products, read at an entry, over the extended reals.

  The first is `x · W1`: entry `(r, q)` is `Σ_k x (r, k) · W1 (k, q)`. The second takes the aggregated hidden
  features `a`, adds the bias row to every row, takes the positive part and multiplies by the column `W2`:
  entry `(r, q)` is `Σ_k max (a (r, k) + b k) 0 · W2 (k, q)`. The second is named here as a function of the aggregated
  array, so that it can be met by the second kernel region whatever that array is.
-/
import proofs.«131981_j27522150432987_1_alg».proof.Proof.RefRead
import proofs.«131981_j27522150432987_1_alg».proof.Proof.LibDotGeneralPlain
import Idealize.ShloMosaic.Lib.ValueIdx

noncomputable section

open scoped BigOperators

namespace Cert.ReferenceIdeal.RefValue

open Cert.ReferenceIdeal Cert.ReferenceIdeal.Gen Cert.ReferenceIdeal.Read
open Idealize.ShloMosaic Idealize.ShloMosaic.TcCoe Idealize.ShloMosaic.ValueIdx

variable {F : FTy → Type} [FloatOps F]

/-- The reference's second product as a function of the aggregated array `a`, the bias `b` and the column `w`. -/
def hidden (a : (⟨S100000x64, .f32⟩ : BufTy).Contents (Elt F)) (b : (⟨S64, .f32⟩ : BufTy).Contents (Elt F))
    (w : (⟨S64x1, .f32⟩ : BufTy).Contents (Elt F)) : (⟨S100000x1, .f32⟩ : BufTy).Contents (Elt F) :=
  Host.dotGeneral dot_S100000x64_S64x1_S100000x1_1_0_0_1_n_n none
    (maximumf (addf a (val_main_v47 (F := F) b)) (val_main_call1_v0 (F := F))) w

/-- The reference's second product is that function of its aggregated array. -/
theorem val_main_v50_eq (x0 : (⟨S100000x128, .f32⟩ : BufTy).Contents (Elt F)) (x1 : (⟨S2x1600000, .i32⟩ : BufTy).Contents (Elt F))
    (x2 : (⟨S128x64, .f32⟩ : BufTy).Contents (Elt F)) (x3 : (⟨S64, .f32⟩ : BufTy).Contents (Elt F))
    (x4 : (⟨S64x1, .f32⟩ : BufTy).Contents (Elt F)) :
    val_main_v50 (F := F) x0 x1 x2 x3 x4 = hidden (val_main_v45 (F := F) x0 x1 x2) x3 x4 := rfl

/-- Entry `(r, q)` of the first product. -/
theorem first_apply (x0 : (⟨S100000x128, .f32⟩ : BufTy).Contents (Elt Ideal)) (x2 : (⟨S128x64, .f32⟩ : BufTy).Contents (Elt Ideal))
    (i : S100000x64.Idx) :
    val_main_v32 (F := Ideal) x0 x2 i = ∑ k : Fin 128, x0 (ix2 (i 0) k) * x2 (ix2 k (i 1)) := by
  rw [val_main_v32_apply]
  refine Finset.sum_congr rfl fun k _ => ?_
  have el : lidx_main_v32 i k = ix2 (i 0) k := funext fun a => Fin.ext (by match a with | ⟨0, _⟩ => rfl | ⟨1, _⟩ => rfl)
  have er : ridx_main_v32 i k = ix2 k (i 1) := funext fun a => Fin.ext (by match a with | ⟨0, _⟩ => rfl | ⟨1, _⟩ => rfl)
  exact congrArg₂ (· * ·) (congrArg x0 el) (congrArg x2 er)

/-- Entry `(r, q)` of the second product. -/
theorem hidden_apply (a : (⟨S100000x64, .f32⟩ : BufTy).Contents (Elt Ideal)) (b : (⟨S64, .f32⟩ : BufTy).Contents (Elt Ideal))
    (w : (⟨S64x1, .f32⟩ : BufTy).Contents (Elt Ideal)) (i : S100000x1.Idx) :
    hidden (F := Ideal) a b w i
      = ∑ k : Fin 64, max (a (ix2 (i 0) k) + b (ix1 k)) (Ideal.ofBits .f32 0x00000000#32) * w (ix2 k (i 1)) := by
  unfold hidden
  have h := Cert.Lib.dotGeneral_plain_apply (φ₁ := .f32) (φ₂ := .f32) 100000 64 1 none
    (maximumf (addf a (val_main_v47 (F := Ideal) b)) (val_main_call1_v0 (F := Ideal))) w (i 0) (i 1)
  refine (congrArg _ (eq_ix2 i)).trans ?_
  refine Eq.trans h (Finset.sum_congr rfl fun k _ => ?_)
  refine congrArg (· * w (ix2 k (i 1))) ?_
  show max (a (ix2 (i 0) k) + val_main_v47 (F := Ideal) b (ix2 (i 0) k)) (val_main_call1_v0 (F := Ideal) (ix2 (i 0) k)) = _
  rw [val_main_v47_apply, val_main_v46_apply, val_main_call1_v0_apply]
  have e : idx_main_v46 (idx_main_v47 (ix2 (i 0) k)) = ix1 k := funext fun d => Fin.ext (by match d with | ⟨0, _⟩ => rfl)
  rw [e]
  rfl

end Cert.ReferenceIdeal.RefValue

end
-- ==== Proof.Region0.lean ====
/-
  The first region's output array after the region, whatever the memory it is entered from.

  The region's grid has ten points; point `t` fetches rows `10000·t … 10000·t + 9999` of `x` and the whole of `W1`,
  and writes back rows `10000·t … 10000·t + 9999` of the output. Entry `(p, q)` of what it writes is
  `Σ_k x (10000·t + p, k) · W1 (k, q)`, which is entry `(10000·t + p, q)` of the whole product `x · W1`. The ten
  blocks tile the output (row `r` is in block `r / 10000`), so the array ends holding the whole product.
-/
import proofs.«131981_j27522150432987_1_alg».proof.Proof.Gen.KernelIdeal.Frame
import proofs.«131981_j27522150432987_1_alg».proof.Proof.Products
import proofs.«131981_j27522150432987_1_alg».proof.Proof.RefProducts

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl

/-- The block indices of the three windows at point `t`: the row blocks move with the point, the weight stays. -/
theorem blockIdx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the whole product of the arrays the region finds. -/
theorem flushed0 (c : Dev nD) (t : Fin cfg0.N) :
    (dat0 V c).flushed 2 t = ((cfg0.win 2).blk t).view.read (Elt Ideal)
      (Cert.ReferenceIdeal.Read.val_main_v32 (F := Ideal) (V c main_arg0) (V c main_arg2)) := by
  show (cfg0.win 2).cut (grid0.coords t) ((dat0 V c).after 2 t) = _
  rw [after0_2]
  unfold out0_2
  rw [View.canon_unit_zero zero2]
  simp only [View.ld_unit_zero (S := S10000x128) zero2, View.ld_unit_zero (S := S128x64) zero2]
  obtain ⟨e0, e1, e2, e3, e4, e5⟩ := blockIdx0 t
  funext j
  show k0_pay1 (iblk0 V c 0 t) (iblk0 V c 1 t) j
    = Cert.ReferenceIdeal.Read.val_main_v32 (F := Ideal) (V c main_arg0) (V c main_arg2) (((cfg0.win 2).blk t).view.emb j)
  refine (prod0_apply _ _ j).trans ?_
  refine Eq.trans ?_ (Cert.ReferenceIdeal.RefValue.first_apply _ _ _).symm
  refine Finset.sum_congr rfl fun k _ => ?_
  have hj0 : (j 0).val < 10000 := (j 0).isLt
  have hj1 : (j 1).val < 64 := (j 1).isLt
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have hr : iblk0 V c 1 t (ix2 k (j 1)) = V c main_arg2 (ix2 k ((((cfg0.win 2).blk t).view.emb j) 1)) := by
    show V c main_arg2 (((cfg0.win 1).blk t).view.emb (ix2 k (j 1))) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [hl, hr]

/-- An index of the output array is in point `t`'s block iff each coordinate is in the block's range. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v32).slice (win0_2.rect t)).set ↔ _
  rw [View.set_slice_whole, Rect.mem_set_unit]
  exact Iff.rfl

/-- Every index of the output array is in some point's block: row `r` is in block `r / 10000`. -/
theorem cover0 (i : S100000x64.Idx) :
    ∃ t : Fin cfg0.N, (cfg0.win 2).flush t = true ∧ i ∈ ((cfg0.win 2).blk t).view.set := by
  have h0 : (i 0).val < 100000 := (i 0).isLt
  have h1 : (i 1).val < 64 := (i 1).isLt
  have hN : (i 0).val / 10000 < cfg0.N := by show _ < grid0.N; rw [N_0]; omega
  refine ⟨⟨(i 0).val / 10000, hN⟩, flush0_2 _, ?_⟩
  obtain ⟨-, -, -, -, e4, e5⟩ := blockIdx0 ⟨(i 0).val / 10000, hN⟩
  rw [mem_block0]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 64 ≤ (i 1).val
      ∧ (i 1).val < win0_2.index ⟨(i 0).val / 10000, hN⟩ (1 : Fin 2) * 64 + 64
    rw [e5]; omega

/-- The first region's output array after the region is the whole product of the two arrays it reads. -/
theorem final0 (c : Dev nD) :
    (dat0 V c).arrAt 2 cfg0.N = Cert.ReferenceIdeal.Read.val_main_v32 (F := Ideal) (V c main_arg0) (V c main_arg2) :=
  (dat0 V c).arrAt_eq_of_cover 2 _ (fun t _ => flushed0 V c t) cover0

end Cert.KernelIdeal.KV

end
-- ==== Proof.Region1.lean ====
/-
  The second region's output array after the region, whatever the memory it is entered from.

  The grid has ten points; point `t` fetches rows `10000·t … 10000·t + 9999` of the aggregated array `a`, the whole
  bias `b` and the whole column `W2`, and writes back rows `10000·t … 10000·t + 9999` of the output. Entry `(p, q)` of
  what it writes is `Σ_k max (a (10000·t + p, k) + b k) 0 · W2 (k, q)`: entry `(10000·t + p, q)` of the reference's second
  product taken of the whole arrays. The ten blocks tile the output, so the array ends holding that product.
-/
import proofs.«131981_j27522150432987_1_alg».proof.Proof.Gen.KernelIdeal.Frame
import proofs.«131981_j27522150432987_1_alg».proof.Proof.Products
import proofs.«131981_j27522150432987_1_alg».proof.Proof.RefProducts

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem zero2' : (![0, 0] : Fin 2 → Nat) = fun _ => 0 := funext fun a => by fin_cases a <;> rfl
theorem zero1 : (![0] : Fin 1 → Nat) = fun _ => 0 := funext fun a => by fin_cases a; rfl

/-- The block indices of the four windows at point `t`: the row blocks move with the point, bias and column stay. -/
theorem blockIdx1 : ∀ t : Fin cfg1.N, win1_0.index t (0 : Fin 2) = t.val ∧ win1_0.index t (1 : Fin 2) = 0
    ∧ win1_1.index t (0 : Fin 1) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the reference's second product of the arrays the region finds. -/
theorem flushed1 (c : Dev nD) (t : Fin cfg1.N) :
    (dat1 V c).flushed 3 t = ((cfg1.win 3).blk t).view.read (Elt Ideal)
      (Cert.ReferenceIdeal.RefValue.hidden (F := Ideal) (V c main_v45) (V c main_arg3) (V c main_arg4)) := by
  show (cfg1.win 3).cut (grid1.coords t) ((dat1 V c).after 3 t) = _
  rw [after1_3]
  unfold out1_3
  rw [View.canon_unit_zero zero2']
  simp only [View.ld_unit_zero (S := S10000x64) zero2', View.ld_unit_zero (S := S64) zero1, View.ld_unit_zero (S := S64x1) zero2']
  obtain ⟨e0, e1, e2, e3, e4, e5, e6⟩ := blockIdx1 t
  funext j
  show k1_pay1 (iblk1 V c 0 t) (iblk1 V c 1 t) (iblk1 V c 2 t) j
    = Cert.ReferenceIdeal.RefValue.hidden (F := Ideal) (V c main_v45) (V c main_arg3) (V c main_arg4) (((cfg1.win 3).blk t).view.emb j)
  refine (prod1_apply _ _ _ j).trans ?_
  refine Eq.trans ?_ (Cert.ReferenceIdeal.RefValue.hidden_apply _ _ _ _).symm
  refine Finset.sum_congr rfl fun k _ => ?_
  have hj0 : (j 0).val < 10000 := (j 0).isLt
  have hj1 : (j 1).val < 1 := (j 1).isLt
  have ha : iblk1 V c 0 t (ix2 (j 0) k) = V c main_v45 (ix2 ((((cfg1.win 3).blk t).view.emb j) 0) k) := by
    show V c main_v45 (((cfg1.win 0).blk t).view.emb (ix2 (j 0) k)) = _
    refine congrArg (V c main_v45) (funext fun a => Fin.ext ?_)
    match a with
    | ⟨0, _⟩ => show win1_0.index t (0 : Fin 2) * 10000 + 1 * (j 0).val = win1_3.index t (0 : Fin 2) * 10000 + 1 * (j 0).val; omega
    | ⟨1, _⟩ => show win1_0.index t (1 : Fin 2) * 64 + 1 * k.val = k.val; omega
  have hb : iblk1 V c 1 t (ix1 k) = V c main_arg3 (ix1 k) := by
    show V c main_arg3 (((cfg1.win 1).blk t).view.emb (ix1 k)) = _
    refine congrArg (V c main_arg3) (funext fun a => Fin.ext ?_)
    match a with
    | ⟨0, _⟩ => show win1_1.index t (0 : Fin 1) * 64 + 1 * k.val = k.val; omega
  have hw : iblk1 V c 2 t (ix2 k (j 1)) = V c main_arg4 (ix2 k ((((cfg1.win 3).blk t).view.emb j) 1)) := by
    show V c main_arg4 (((cfg1.win 2).blk t).view.emb (ix2 k (j 1))) = _
    refine congrArg (V c main_arg4) (funext fun a => Fin.ext ?_)
    match a with
    | ⟨0, _⟩ => show win1_2.index t (0 : Fin 2) * 64 + 1 * k.val = k.val; omega
    | ⟨1, _⟩ => show win1_2.index t (1 : Fin 2) * 1 + 1 * (j 1).val = win1_3.index t (1 : Fin 2) * 1 + 1 * (j 1).val; omega
  rw [ha, hb, hw]

/-- An index of the output array is in point `t`'s block iff each coordinate is in the block's range. -/
theorem mem_block1 (t : Fin cfg1.N) (i : S100000x1.Idx) :
    i ∈ ((cfg1.win 3).blk t).view.set ↔ ∀ a : Fin 2, win1_3.index t a * S10000x1.size a ≤ (i a).val
      ∧ (i a).val < win1_3.index t a * S10000x1.size a + S10000x1.size a := by
  show i ∈ ((View.whole main_v46).slice (win1_3.rect t)).set ↔ _
  rw [View.set_slice_whole, Rect.mem_set_unit]
  exact Iff.rfl

/-- Every index of the output array is in some point's block: row `r` is in block `r / 10000`. -/
theorem cover1 (i : S100000x1.Idx) :
    ∃ t : Fin cfg1.N, (cfg1.win 3).flush t = true ∧ i ∈ ((cfg1.win 3).blk t).view.set := by
  have h0 : (i 0).val < 100000 := (i 0).isLt
  have h1 : (i 1).val < 1 := (i 1).isLt
  have hN : (i 0).val / 10000 < cfg1.N := by show _ < grid1.N; rw [N_1]; omega
  refine ⟨⟨(i 0).val / 10000, hN⟩, flush1_3 _, ?_⟩
  obtain ⟨-, -, -, -, -, e5, e6⟩ := blockIdx1 ⟨(i 0).val / 10000, hN⟩
  rw [mem_block1]
  intro a
  match a with
  | ⟨0, _⟩ =>
    show win1_3.index ⟨(i 0).val / 10000, hN⟩ (0 : Fin 2) * 10000 ≤ (i 0).val
      ∧ (i 0).val < win1_3.index ⟨(i 0).val / 10000, hN⟩ (0 : Fin 2) * 10000 + 10000
    rw [e5]; show (i 0).val / 10000 * 10000 ≤ (i 0).val ∧ (i 0).val < (i 0).val / 10000 * 10000 + 10000; omega
  | ⟨1, _⟩ =>
    show win1_3.index ⟨(i 0).val / 10000, hN⟩ (1 : Fin 2) * 1 ≤ (i 1).val
      ∧ (i 1).val < win1_3.index ⟨(i 0).val / 10000, hN⟩ (1 : Fin 2) * 1 + 1
    rw [e6]; omega

/-- The second region's output array after the region is the reference's second product of the arrays it reads. -/
theorem final1 (c : Dev nD) :
    (dat1 V c).arrAt 3 cfg1.N
      = Cert.ReferenceIdeal.RefValue.hidden (F := Ideal) (V c main_v45) (V c main_arg3) (V c main_arg4) :=
  (dat1 V c).arrAt_eq_of_cover 3 _ (fun t _ => flushed1 V c t) cover1

end Cert.KernelIdeal.KV

end
-- ==== Proof.KernelValue.lean ====
/-
  The idealized kernel program's result, as the reference's function of the six arguments.

  The memory at the last boundary, read at the result buffer, walks back through the eight segments:
  the stretches before the first region compute the edge data from the edge index; the first region leaves the whole
  product `x · W1`; the stretch between the regions aggregates it; the second region leaves the reference's second
  product of that aggregate, the hidden bias and `W2`; the last stretches aggregate again, add the output bias and pad.
  Each buffer a later segment reads is traced to the segment that wrote it: a region keeps every buffer that is not one
  of its arrays, and a stretch keeps every buffer it does not write.
-/
import proofs.«131981_j27522150432987_1_alg».proof.Proof.Gen.KernelIdeal.Frame
import proofs.«131981_j27522150432987_1_alg».proof.Proof.HostStretches
import proofs.«131981_j27522150432987_1_alg».proof.Proof.Region0
import proofs.«131981_j27522150432987_1_alg».proof.Proof.Region1

set_option maxRecDepth 16384

noncomputable section

namespace Cert.KernelIdeal.KV

open Cert.KernelIdeal Cert.KernelIdeal.Gen
open Cert.ReferenceIdeal.Read Cert.ReferenceIdeal.RefValue
open Idealize.ShloMosaic Idealize.ShloMosaic.TcCoe Idealize.SL.Sem

variable (m : (ℓ : Loc nD τ sig) → Buf (Elt Ideal) ℓ) (ρ : Dev nD → PrngReg)

set_option maxHeartbeats 2000000 in
/-- The result buffer at the last boundary holds the reference's result of the launch contents of the arguments. -/
theorem kernel_value (c : Dev nD) :
    W8 m ρ c (Proc.devRef .tc main_v62)
      = val_main_v66 (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- the first region's entry
  have a0 : W3 m ρ c (Proc.devRef .tc main_arg0) = m ((c : Thread nD τ).loc main_arg0) := (before0_args (W0 m ρ c)).1
  have a2 : W3 m ρ c (Proc.devRef .tc main_arg2) = m ((c : Thread nD τ).loc main_arg2) := (before0_args (W0 m ρ c)).2.1
  have a3 : W3 m ρ c (Proc.devRef .tc main_arg3) = m ((c : Thread nD τ).loc main_arg3) := (before0_args (W0 m ρ c)).2.2.1
  have a4 : W3 m ρ c (Proc.devRef .tc main_arg4) = m ((c : Thread nD τ).loc main_arg4) := (before0_args (W0 m ρ c)).2.2.2.1
  have a5 : W3 m ρ c (Proc.devRef .tc main_arg5) = m ((c : Thread nD τ).loc main_arg5) := (before0_args (W0 m ρ c)).2.2.2.2
  have s3 : W3 m ρ c (Proc.devRef .tc main_v3) = val_main_v3 (F := Ideal) (m ((c : Thread nD τ).loc main_arg1)) :=
    before0_src (W0 m ρ c)
  have s6 : W3 m ρ c (Proc.devRef .tc main_v6) = val_main_v6 (F := Ideal) (m ((c : Thread nD τ).loc main_arg1)) :=
    before0_dst (W0 m ρ c)
  have s31 : W3 m ρ c (Proc.devRef .tc main_v31) = val_main_v31 (F := Ideal) (m ((c : Thread nD τ).loc main_arg1)) :=
    before0_norm (W0 m ρ c)
  -- the first region's exit
  have r0 : W4 m ρ c (Proc.devRef .tc main_v32)
      = val_main_v32 (F := Ideal) (m ((c : Thread nD τ).loc main_arg0)) (m ((c : Thread nD τ).loc main_arg2)) :=
    (W4_arr m ρ c 2).trans ((final0 (V3 m ρ) c).trans (congrArg₂ (val_main_v32 (F := Ideal)) a0 a2))
  have k3 := (W4_of_ne m ρ c main_v3 (by decide)).trans s3
  have k6 := (W4_of_ne m ρ c main_v6 (by decide)).trans s6
  have k31 := (W4_of_ne m ρ c main_v31 (by decide)).trans s31
  have ka3 := (W4_of_ne m ρ c main_arg3 (by decide)).trans a3
  have ka4 := (W4_of_ne m ρ c main_arg4 (by decide)).trans a4
  have ka5 := (W4_of_ne m ρ c main_arg5 (by decide)).trans a5
  -- the second region's entry
  have g45 : W5 m ρ c (Proc.devRef .tc main_v45)
      = val_main_v45 (F := Ideal) (m ((c : Thread nD τ).loc main_arg0)) (m ((c : Thread nD τ).loc main_arg1))
          (m ((c : Thread nD τ).loc main_arg2)) :=
    between_agg (W4 m ρ c) _ _ _ r0 k3 k6 k31
  obtain ⟨b3, b6, b31, ba3, ba4, ba5⟩ := between_kept (W4 m ρ c)
  have l3 : W5 m ρ c (Proc.devRef .tc main_v3) = val_main_v3 (F := Ideal) (m ((c : Thread nD τ).loc main_arg1)) := b3.trans k3
  have l6 : W5 m ρ c (Proc.devRef .tc main_v6) = val_main_v6 (F := Ideal) (m ((c : Thread nD τ).loc main_arg1)) := b6.trans k6
  have l31 : W5 m ρ c (Proc.devRef .tc main_v31) = val_main_v31 (F := Ideal) (m ((c : Thread nD τ).loc main_arg1)) := b31.trans k31
  have la3 : W5 m ρ c (Proc.devRef .tc main_arg3) = m ((c : Thread nD τ).loc main_arg3) := ba3.trans ka3
  have la4 : W5 m ρ c (Proc.devRef .tc main_arg4) = m ((c : Thread nD τ).loc main_arg4) := ba4.trans ka4
  have la5 : W5 m ρ c (Proc.devRef .tc main_arg5) = m ((c : Thread nD τ).loc main_arg5) := ba5.trans ka5
  -- the second region's exit
  have r1 : W6 m ρ c (Proc.devRef .tc main_v46)
      = val_main_v50 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
    refine (W6_arr m ρ c 3).trans ((final1 (V5 m ρ) c).trans ?_)
    show hidden (F := Ideal) (W5 m ρ c (Proc.devRef .tc main_v45)) (W5 m ρ c (Proc.devRef .tc main_arg3))
      (W5 m ρ c (Proc.devRef .tc main_arg4)) = _
    rw [g45, la3, la4]
    exact (val_main_v50_eq _ _ _ _ _).symm
  have n3 := (W6_of_ne m ρ c main_v3 (by decide)).trans l3
  have n6 := (W6_of_ne m ρ c main_v6 (by decide)).trans l6
  have n31 := (W6_of_ne m ρ c main_v31 (by decide)).trans l31
  have n5 := (W6_of_ne m ρ c main_arg5 (by decide)).trans la5
  -- the last stretches
  exact after1_result (W6 m ρ c) _ _ _ _ _ _ r1 n3 n6 n31 n5

end Cert.KernelIdeal.KV

end
-- ==== Proof.lean ====
/-
  Two-layer graph convolution: the kernel program against its reference, over the extended reals.

  Both programs compute `pad (A · relu (A · (x · W1) + b1) · W2 + b2)`, where `A` is the normalised aggregation over the
  edge list with self loops (gather at the sources, scale by the edge's normalisation, scatter-add at the targets).
  They run the SAME host operations for the edge data, the two aggregations, the output bias and the padding; they
  differ only in the two dense products. The kernel program computes `x · W1` in a region of ten row blocks and
  `relu (· + b1) · W2` in a second region of ten row blocks, each rounding its operands to bf16 — the identity on
  extended reals — and accumulating into zero; the reference computes both with the host's product, the bias added
  and the positive part taken by host operations. Entry by entry each pair is the same finite sum of products, so no
  law that could fail at an infinity is used and the precondition is never opened.

  The ideal pass rewrote nothing, so `preserves` is trivial. The three frames are the generated frame certificates
  and the reference's generated run.
-/
import proofs.«131981_j27522150432987_1_alg».proof.Defs
import proofs.«131981_j27522150432987_1_alg».proof.Proof.Gen.Kernel
import proofs.«131981_j27522150432987_1_alg».proof.Proof.Gen.Kernel.Skeleton
import proofs.«131981_j27522150432987_1_alg».proof.Proof.Gen.Kernel.Launch
import proofs.«131981_j27522150432987_1_alg».proof.Proof.Gen.Kernel.Points
import proofs.«131981_j27522150432987_1_alg».proof.Proof.Gen.Kernel.Frame
import proofs.«131981_j27522150432987_1_alg».proof.Proof.Gen.KernelIdeal
import proofs.«131981_j27522150432987_1_alg».proof.Proof.Gen.KernelIdeal.Skeleton
import proofs.«131981_j27522150432987_1_alg».proof.Proof.Gen.KernelIdeal.Launch
import proofs.«131981_j27522150432987_1_alg».proof.Proof.Gen.KernelIdeal.Points
import proofs.«131981_j27522150432987_1_alg».proof.Proof.Gen.KernelIdeal.Frame
import proofs.«131981_j27522150432987_1_alg».proof.Proof.Gen.ReferenceIdeal
import proofs.«131981_j27522150432987_1_alg».proof.Proof.RefRun
import proofs.«131981_j27522150432987_1_alg».proof.Proof.RefRead
import proofs.«131981_j27522150432987_1_alg».proof.Proof.Gen.Pre_finite_inputs
import proofs.«131981_j27522150432987_1_alg».proof.Proof.RunNamed
import proofs.«131981_j27522150432987_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's function of the arguments in their result buffer: the kernel program by
    its named run and the walk back through its segments, the reference by its generated run. -/
theorem algebraic : Cert.algebraic_KernelIdeal_ReferenceIdeal := by
  intro m ρ m' ρ' _ hagree
  refine ⟨fun c => Cert.ReferenceIdeal.Read.val_main_v66 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KV.kernel_value m ρ c), (h c).2⟩)
      (Cert.KernelIdeal.KV.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v66_eq, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
